-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : FVec F S8x2048x1024 .f32) (main_arg1 : FVec F S8x1024x4096 .f32) (main_arg2 : FVec F S8x4096x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  main_v13
-- ==== Kernel.lean ====
abbrev S8x2048x1024 : Shape := ⟨3, ![8, 2048, 1024]⟩
abbrev S8x1024x4096 : Shape := ⟨3, ![8, 1024, 4096]⟩
abbrev S8x4096x1024 : Shape := ⟨3, ![8, 4096, 1024]⟩
abbrev S1x128x1024 : Shape := ⟨3, ![1, 128, 1024]⟩
abbrev S1x1024x4096 : Shape := ⟨3, ![1, 1024, 4096]⟩
abbrev S1x4096x1024 : Shape := ⟨3, ![1, 4096, 1024]⟩
abbrev S128x1024 : Shape := ⟨2, ![128, 1024]⟩
abbrev S1024x4096 : Shape := ⟨2, ![1024, 4096]⟩
abbrev S4096x1024 : Shape := ⟨2, ![4096, 1024]⟩
abbrev S128x4096 : Shape := ⟨2, ![128, 4096]⟩

abbrev nBuf : Space → Nat
  | .hbm => 6
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x4096x1024, .f32⟩
  | .hbm, ⟨3, _⟩ => ⟨S8x1024x4096, .bf16⟩
  | .hbm, ⟨4, _⟩ => ⟨S8x4096x1024, .bf16⟩
  | .hbm, ⟨5, _⟩ => ⟨S8x2048x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x1024x4096, .bf16⟩
  | .local _ .vmem, ⟨3, _⟩ => ⟨S1x1024x4096, .bf16⟩
  | .local _ .vmem, ⟨4, _⟩ => ⟨S1x4096x1024, .bf16⟩
  | .local _ .vmem, ⟨5, _⟩ => ⟨S1x4096x1024, .bf16⟩
  | .local _ .vmem, ⟨6, _⟩ => ⟨S1x128x1024, .f32⟩
  | .local _ .vmem, ⟨7, _⟩ => ⟨S1x128x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  shapeCasts_S128x1024_S1x128x1024 : S128x1024.ShapeCasts S1x128x1024
  dot_S128x1024_S1024x4096_S128x4096_1_0_0_1_n_n_wf : DotDims.WF S128x1024 S1024x4096 S128x4096 [1] [0] [0] [1] [] []
  dot_S128x4096_S4096x1024_S128x1024_1_0_0_1_n_n_wf : DotDims.WF S128x4096 S4096x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S8x2048x1024.size a
  hwx0_0 : ∀ i : grid0.Coords, EltTy.bits .f32 = 32 ∨ (Rect.block (s := S8x2048x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S8x1024x4096.size a
  hwx0_1 : ∀ i : grid0.Coords, EltTy.bits .bf16 = 32 ∨ (Rect.block (s := S8x1024x4096) S1x1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1024.size a ≤ S8x4096x1024.size a
  hwx0_2 : ∀ i : grid0.Coords, EltTy.bits .bf16 = 32 ∨ (Rect.block (s := S8x4096x1024) S1x4096x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S8x2048x1024.size a
  hwx0_3 : ∀ i : grid0.Coords, EltTy.bits .f32 = 32 ∨ (Rect.block (s := S8x2048x1024) S1x128x1024.size (cc0_transform_3 i) (hinb0_3 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x4096x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x1024x4096 : Shape := ⟨3, ![8, 1024, 4096]⟩
abbrev S8x4096x1024 : Shape := ⟨3, ![8, 4096, 1024]⟩
abbrev S8x2048x4096 : Shape := ⟨3, ![8, 2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x4096x1024, .f32⟩
  | .hbm, ⟨3, _⟩ => ⟨S8x2048x4096, .f32⟩
  | .hbm, ⟨4, _⟩ => ⟨S_, .f32⟩
  | .hbm, ⟨5, _⟩ => ⟨S8x2048x4096, .f32⟩
  | .hbm, ⟨6, _⟩ => ⟨S8x2048x4096, .f32⟩
  | .hbm, ⟨7, _⟩ => ⟨S_, .f32⟩
  | .hbm, ⟨8, _⟩ => ⟨S8x2048x4096, .f32⟩
  | .hbm, ⟨9, _⟩ => ⟨S8x2048x4096, .f32⟩
  | .hbm, ⟨10, _⟩ => ⟨S8x2048x4096, .f32⟩
  | .hbm, ⟨11, _⟩ => ⟨S8x2048x4096, .f32⟩
  | .hbm, ⟨12, _⟩ => ⟨S8x2048x4096, .f32⟩
  | .hbm, ⟨13, _⟩ => ⟨S_, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S_, .f32⟩
  | .hbm, ⟨18, _⟩ => ⟨S8x2048x4096, .f32⟩
  | .hbm, ⟨19, _⟩ => ⟨S8x2048x4096, .f32⟩
  | .hbm, ⟨20, _⟩ => ⟨S8x2048x4096, .f32⟩
  | .hbm, ⟨21, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.MlpSpec.lean ====
/-
  The function both programs compute, on the extended reals.

  For every expert `e` the input rows `x[e]` (2048 × 1024) are multiplied by `w1[e]` (1024 × 4096), the
  tanh-approximated GELU is applied entry by entry, and the result is multiplied by `w2[e]` (4096 × 1024):

      hidden x w1 e r f = ∑ k, x[e, r, k] · w1[e, k, f]
      mlp x w1 w2 [e, r, c] = ∑ f, gelu (hidden x w1 e r f) · w2[e, f, c]

  with `gelu h = (½ · h) · (1 + tanh (c · (h + ((a · h) · h) · h)))`, where ½, 1, `c` (the f32 nearest √(2/π)) and
  `a` (the f32 nearest 0.044715) are kept as the binary words both programs print: the same word on both sides is
  never evaluated. The grouping of the products is the one both programs use, so no law of the extended reals beyond
  reading a finite sum is needed, and in particular no finiteness of the inputs.
-/
import Idealize.ShloMosaic.PureOps.Ideal
import Idealize.ShloMosaic.Lib.ValueIdx

noncomputable section

open scoped BigOperators

namespace Cert.MlpSpec

open Idealize.ShloMosaic Idealize.ShloMosaic.ValueIdx

/-- The tanh-approximated GELU of one extended real, with the four float literals as their binary words. -/
def gelu (h : EReal) : EReal :=
  (Ideal.ofBits .f32 0x3F000000#32 * h) *
    (Ideal.ofBits .f32 0x3F800000#32 +
      Ideal.tanh (Ideal.ofBits .f32 0x3F4C422A#32 * (h + Ideal.ofBits .f32 0x3D372713#32 * h * h * h)))

/-- Entry `(e, r, f)` of the first product: row `r` of expert `e`'s input against column `f` of its first weight. -/
def hidden (x : (⟨3, ![8, 2048, 1024]⟩ : Shape).Idx → EReal) (w1 : (⟨3, ![8, 1024, 4096]⟩ : Shape).Idx → EReal)
    (e : Fin 8) (r : Fin 2048) (f : Fin 4096) : EReal :=
  ∑ k : Fin 1024, x (ix3 e r k) * w1 (ix3 e k f)

/-- The whole result array: the activated first product against the second weight, expert by expert. -/
def mlp (x : (⟨3, ![8, 2048, 1024]⟩ : Shape).Idx → EReal) (w1 : (⟨3, ![8, 1024, 4096]⟩ : Shape).Idx → EReal)
    (w2 : (⟨3, ![8, 4096, 1024]⟩ : Shape).Idx → EReal) : (⟨3, ![8, 2048, 1024]⟩ : Shape).Idx → EReal :=
  fun i => ∑ f : Fin 4096, gelu (hidden x w1 (i 0) (i 1) f) * w2 (ix3 (i 0) f (i 2))

end Cert.MlpSpec

end
-- ==== Proof.RefIsMlp.lean ====
/-
  The reference's result is the specification `MlpSpec.mlp` of its three arguments.

  The reference is two batched `dot_general`s with the tanh-approximated GELU between them. Read at an index, the first
  is the sum over the contracted axis of `x[e, r, k] · w1[e, k, f]` (`hidden`), the pointwise operations between the two
  products are `gelu` of that entry with the products grouped exactly as the specification groups them, and the second is
  the sum over `f` of the activated entry times `w2[e, f, c]`.
-/
import proofs.«153284_j45002667327743_2_alg».proof.Proof.Gen.ReferenceIdeal.Read
import proofs.«153284_j45002667327743_2_alg».proof.Proof.MlpSpec

noncomputable section

open scoped BigOperators

namespace Cert.ReferenceIdeal.RefValue

open Cert.ReferenceIdeal Cert.ReferenceIdeal.Gen Cert.ReferenceIdeal.Read Cert.MlpSpec
open Idealize.ShloMosaic Idealize.ShloMosaic.ValueIdx

/-- The first `dot_general` at `(e, r, f)`: row `r` of expert `e`'s input against column `f` of its first weight. -/
theorem first_product_apply (x : (⟨S8x2048x1024, .f32⟩ : BufTy).Contents (Elt Ideal)) (w1 : (⟨S8x1024x4096, .f32⟩ : BufTy).Contents (Elt Ideal))
    (j : S8x2048x4096.Idx) : val_main_v0 (F := Ideal) x w1 j = MlpSpec.hidden x w1 (j 0) (j 1) (j 2) := by
  rw [val_main_v0_apply]
  unfold MlpSpec.hidden
  refine Finset.sum_congr rfl fun k _ => ?_
  have el : lidx_main_v0 j k = ix3 (j 0) (j 1) k :=
    funext fun a => Fin.ext (by match a with | ⟨0, _⟩ => rfl | ⟨1, _⟩ => rfl | ⟨2, _⟩ => rfl)
  have er : ridx_main_v0 j k = ix3 (j 0) k (j 2) :=
    funext fun a => Fin.ext (by match a with | ⟨0, _⟩ => rfl | ⟨1, _⟩ => rfl | ⟨2, _⟩ => rfl)
  rw [el, er]
  rfl

/-- The operand of the second `dot_general` at `(e, r, f)` is `gelu` of the first product's entry there. -/
theorem activated_apply (x : (⟨S8x2048x1024, .f32⟩ : BufTy).Contents (Elt Ideal)) (w1 : (⟨S8x1024x4096, .f32⟩ : BufTy).Contents (Elt Ideal))
    (j : S8x2048x4096.Idx) : val_main_v13 (F := Ideal) x w1 j = MlpSpec.gelu (MlpSpec.hidden x w1 (j 0) (j 1) (j 2)) := by
  rw [val_main_v13_apply, val_main_v2_apply, val_main_v12_apply, val_main_v1_apply, val_main_cst_apply, val_main_v11_apply,
    val_main_cst_2_apply, val_main_v10_apply, val_main_v9_apply, val_main_v8_apply, val_main_cst_1_apply, val_main_v7_apply,
    val_main_v6_apply, val_main_v5_apply, val_main_v4_apply, val_main_v3_apply, val_main_cst_0_apply, first_product_apply]
  rfl

/-- The reference's last stage, as a whole array, is the specification. -/
theorem result_eq (x : (⟨S8x2048x1024, .f32⟩ : BufTy).Contents (Elt Ideal)) (w1 : (⟨S8x1024x4096, .f32⟩ : BufTy).Contents (Elt Ideal))
    (w2 : (⟨S8x4096x1024, .f32⟩ : BufTy).Contents (Elt Ideal)) : val_main_v14 (F := Ideal) x w1 w2 = MlpSpec.mlp x w1 w2 := by
  funext i
  rw [val_main_v14_apply]
  unfold MlpSpec.mlp
  refine Finset.sum_congr rfl fun f _ => ?_
  have er : ridx_main_v14 i f = ix3 (i 0) f (i 2) :=
    funext fun a => Fin.ext (by match a with | ⟨0, _⟩ => rfl | ⟨1, _⟩ => rfl | ⟨2, _⟩ => rfl)
  rw [er, activated_apply]
  rfl

end Cert.ReferenceIdeal.RefValue

end
-- ==== Proof.TileValue.lean ====
/-
  What the kernel body stores at one grid point, read at an index.

  At a point the body holds a 128-row tile `xt` of one expert's input (as a [1, 128, 1024] block), that expert's whole
  first weight `at` ([1, 1024, 4096]) and second weight `bt` ([1, 4096, 1024]). It drops the unit axes, multiplies the
  tile by the first weight on the matrix unit into a zero accumulator, applies the tanh-approximated GELU entry by entry,
  multiplies by the second weight into a zero accumulator, and puts the unit axis back. At the ideal instance a change of
  float format is the identity and a matrix product into zero is the plain sum over the contracted axis, so entry
  `(0, r, c)` of what is stored is

      ∑ f, gelu (∑ k, xt[0, r, k] · at[0, k, f]) · bt[0, f, c].
-/
import proofs.«153284_j45002667327743_2_alg».proof.Proof.Gen.KernelIdeal.Skeleton
import proofs.«153284_j45002667327743_2_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

/-! ## The two matrix products' operand indices, coordinate by coordinate

Both products contract the left operand's columns against the right operand's rows and have no batch axis: at output
entry `(r, c)` and contraction coordinate `k` the operands are read at `(r, k)` and `(k, c)`. -/

theorem up_lhs_row (j : S128x4096.Idx) (q : dot_S128x1024_S1024x4096_S128x4096_1_0_0_1_n_n.contr.Idx) : (dot_S128x1024_S1024x4096_S128x4096_1_0_0_1_n_n.lhsIdx j q 0).val = (j 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem up_lhs_contr (j : S128x4096.Idx) (q : dot_S128x1024_S1024x4096_S128x4096_1_0_0_1_n_n.contr.Idx) : (dot_S128x1024_S1024x4096_S128x4096_1_0_0_1_n_n.lhsIdx j q 1).val = (q ⟨0, by decide⟩).val :=
  dot_S128x1024_S1024x4096_S128x4096_1_0_0_1_n_n.lhsIdx_val_of_single rfl j q
theorem up_rhs_contr (j : S128x4096.Idx) (q : dot_S128x1024_S1024x4096_S128x4096_1_0_0_1_n_n.contr.Idx) : (dot_S128x1024_S1024x4096_S128x4096_1_0_0_1_n_n.rhsIdx j q 0).val = (q ⟨0, by decide⟩).val :=
  dot_S128x1024_S1024x4096_S128x4096_1_0_0_1_n_n.rhsIdx_val_of_single rfl j q
theorem up_rhs_col (j : S128x4096.Idx) (q : dot_S128x1024_S1024x4096_S128x4096_1_0_0_1_n_n.contr.Idx) : (dot_S128x1024_S1024x4096_S128x4096_1_0_0_1_n_n.rhsIdx j q 1).val = (j 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

theorem down_lhs_row (j : S128x1024.Idx) (q : dot_S128x4096_S4096x1024_S128x1024_1_0_0_1_n_n.contr.Idx) : (dot_S128x4096_S4096x1024_S128x1024_1_0_0_1_n_n.lhsIdx j q 0).val = (j 0).val := by
  unfold DotDims.lhsIdx
  rw [dif_neg (show ¬(0 : Fin S128x4096.rank) ∈ dot_S128x4096_S4096x1024_S128x1024_1_0_0_1_n_n.lhsBatch by decide), dif_pos (show (0 : Fin S128x4096.rank) ∈ dot_S128x4096_S4096x1024_S128x1024_1_0_0_1_n_n.lhsNonContracting by decide)]
  rfl
theorem down_lhs_contr (j : S128x1024.Idx) (q : dot_S128x4096_S4096x1024_S128x1024_1_0_0_1_n_n.contr.Idx) : (dot_S128x4096_S4096x1024_S128x1024_1_0_0_1_n_n.lhsIdx j q 1).val = (q ⟨0, by decide⟩).val :=
  dot_S128x4096_S4096x1024_S128x1024_1_0_0_1_n_n.lhsIdx_val_of_single rfl j q
theorem down_rhs_contr (j : S128x1024.Idx) (q : dot_S128x4096_S4096x1024_S128x1024_1_0_0_1_n_n.contr.Idx) : (dot_S128x4096_S4096x1024_S128x1024_1_0_0_1_n_n.rhsIdx j q 0).val = (q ⟨0, by decide⟩).val :=
  dot_S128x4096_S4096x1024_S128x1024_1_0_0_1_n_n.rhsIdx_val_of_single rfl j q
theorem down_rhs_col (j : S128x1024.Idx) (q : dot_S128x4096_S4096x1024_S128x1024_1_0_0_1_n_n.contr.Idx) : (dot_S128x4096_S4096x1024_S128x1024_1_0_0_1_n_n.rhsIdx j q 1).val = (j 1).val := by
  unfold DotDims.rhsIdx
  rw [dif_neg (show ¬(1 : Fin S4096x1024.rank) ∈ dot_S128x4096_S4096x1024_S128x1024_1_0_0_1_n_n.rhsBatch by decide), dif_pos (show (1 : Fin S4096x1024.rank) ∈ dot_S128x4096_S4096x1024_S128x1024_1_0_0_1_n_n.rhsNonContracting by decide)]
  rfl

/-! ## Each product into a zero accumulator is the plain sum -/

/-- The first product at `(r, f)`: row `r` of the tile against column `f` of the first weight. -/
theorem up_product_apply (a : FVec Ideal S128x1024 .bf16) (b : FVec Ideal S1024x4096 .bf16) (r : Fin 128) (c : Fin 4096) :
    matmul dot_S128x1024_S1024x4096_S128x4096_1_0_0_1_n_n none a b (constant (F := Ideal) S128x4096 .f32 0x00000000#32) (ix2 r c)
      = ∑ k : Fin 1024, a (ix2 r k) * b (ix2 k c) := by
  simp only [matmul]
  rw [Ideal.matmul_constant_zero_apply, ← Equiv.sum_comp (contrEquiv1 dot_S128x1024_S1024x4096_S128x4096_1_0_0_1_n_n 1024 rfl rfl).symm]
  refine Finset.sum_congr rfl fun k _ => ?_
  have hk := contrEquiv1_symm_val dot_S128x1024_S1024x4096_S128x4096_1_0_0_1_n_n 1024 rfl rfl k
  have el : dot_S128x1024_S1024x4096_S128x4096_1_0_0_1_n_n.lhsIdx (ix2 r c) ((contrEquiv1 dot_S128x1024_S1024x4096_S128x4096_1_0_0_1_n_n 1024 rfl rfl).symm k) = ix2 r k := funext fun d => Fin.ext (by
    match d with
    | ⟨0, _⟩ => exact up_lhs_row _ _
    | ⟨1, _⟩ => exact (up_lhs_contr _ _).trans hk)
  have er : dot_S128x1024_S1024x4096_S128x4096_1_0_0_1_n_n.rhsIdx (ix2 r c) ((contrEquiv1 dot_S128x1024_S1024x4096_S128x4096_1_0_0_1_n_n 1024 rfl rfl).symm k) = ix2 k c := funext fun d => Fin.ext (by
    match d with
    | ⟨0, _⟩ => exact (up_rhs_contr _ _).trans hk
    | ⟨1, _⟩ => exact up_rhs_col _ _)
  rw [el, er]

/-- The second product at `(r, c)`: row `r` of the activated tile against column `c` of the second weight. -/
theorem down_product_apply (a : FVec Ideal S128x4096 .bf16) (b : FVec Ideal S4096x1024 .bf16) (r : Fin 128) (c : Fin 1024) :
    matmul dot_S128x4096_S4096x1024_S128x1024_1_0_0_1_n_n none a b (constant (F := Ideal) S128x1024 .f32 0x00000000#32) (ix2 r c)
      = ∑ k : Fin 4096, a (ix2 r k) * b (ix2 k c) := by
  simp only [matmul]
  rw [Ideal.matmul_constant_zero_apply, ← Equiv.sum_comp (contrEquiv1 dot_S128x4096_S4096x1024_S128x1024_1_0_0_1_n_n 4096 rfl rfl).symm]
  refine Finset.sum_congr rfl fun k _ => ?_
  have hk := contrEquiv1_symm_val dot_S128x4096_S4096x1024_S128x1024_1_0_0_1_n_n 4096 rfl rfl k
  have el : dot_S128x4096_S4096x1024_S128x1024_1_0_0_1_n_n.lhsIdx (ix2 r c) ((contrEquiv1 dot_S128x4096_S4096x1024_S128x1024_1_0_0_1_n_n 4096 rfl rfl).symm k) = ix2 r k := funext fun d => Fin.ext (by
    match d with
    | ⟨0, _⟩ => exact down_lhs_row _ _
    | ⟨1, _⟩ => exact (down_lhs_contr _ _).trans hk)
  have er : dot_S128x4096_S4096x1024_S128x1024_1_0_0_1_n_n.rhsIdx (ix2 r c) ((contrEquiv1 dot_S128x4096_S4096x1024_S128x1024_1_0_0_1_n_n 4096 rfl rfl).symm k) = ix2 k c := funext fun d => Fin.ext (by
    match d with
    | ⟨0, _⟩ => exact (down_rhs_contr _ _).trans hk
    | ⟨1, _⟩ => exact down_rhs_col _ _)
  rw [el, er]

/-! ## The pointwise chain between the products is `gelu` -/

/-- The body's operations between the two products, as one function of the first product. -/
def activate (h : FVec Ideal S128x4096 .f32) : FVec Ideal S128x4096 .f32 :=
  mulf (mulf (broadcast S128x4096 (Scalar.ofBits (F := Ideal) .f32 0x3F000000#32)) h)
    (addf (broadcast S128x4096 (Scalar.ofBits (F := Ideal) .f32 0x3F800000#32))
      (tanh (mulf (broadcast S128x4096 (Scalar.ofBits (F := Ideal) .f32 0x3F4C422A#32))
        (addf h (mulf (mulf (mulf (broadcast S128x4096 (Scalar.ofBits (F := Ideal) .f32 0x3D372713#32)) h) h) h)))))

/-- Entry by entry it is the specification's `gelu`: every operation is pointwise and exact at the ideal instance. -/
theorem activate_apply (h : FVec Ideal S128x4096 .f32) (j : S128x4096.Idx) : activate h j = MlpSpec.gelu (h j) := rfl

/-! ## The stored tile -/

/-- The body's one payload is: drop the unit axes, first product, `activate`, second product, restore the unit axis
    (a change of float format in between is the identity at the ideal instance). -/
theorem payload_eq (xt : Vec Ideal S1x128x1024 .f32) (at_ : Vec Ideal S1x1024x4096 .bf16) (bt : Vec Ideal S1x4096x1024 .bf16) :
    k0_pay1 (F := Ideal) xt at_ bt
      = shapeCast S1x128x1024
          (matmul (φ₁ := .bf16) (φ₂ := .bf16) dot_S128x4096_S4096x1024_S128x1024_1_0_0_1_n_n none
            (truncf .bf16 (activate (matmul (φ₁ := .bf16) (φ₂ := .bf16) dot_S128x1024_S1024x4096_S128x4096_1_0_0_1_n_n none
              (truncf .bf16 (shapeCast S128x1024 xt shapeCasts_S1x128x1024_S128x1024) bitsLt_bf16_f32)
              (shapeCast S1024x4096 at_ shapeCasts_S1x1024x4096_S1024x4096) (constant (F := Ideal) S128x4096 .f32 0x00000000#32))) bitsLt_bf16_f32)
            (shapeCast S4096x1024 bt shapeCasts_S1x4096x1024_S4096x1024) (constant (F := Ideal) S128x1024 .f32 0x00000000#32))
          shapeCasts_S128x1024_S1x128x1024 := rfl

/-- Entry `(u, r, c)` of the stored tile (`u` the unit axis's one coordinate): the activated first product of row `r`
    against column `c` of the second weight. -/
theorem payload_apply (xt : Vec Ideal S1x128x1024 .f32) (at_ : Vec Ideal S1x1024x4096 .bf16) (bt : Vec Ideal S1x4096x1024 .bf16)
    (u : Fin 1) (r : Fin 128) (c : Fin 1024) :
    k0_pay1 (F := Ideal) xt at_ bt (ix3 u r c)
      = ∑ f : Fin 4096, MlpSpec.gelu (∑ k : Fin 1024, xt (ix3 0 r k) * at_ (ix3 0 k f)) * bt (ix3 0 f c) := by
  rw [payload_eq, shapeCast_ab_1ab_apply, down_product_apply]
  refine Finset.sum_congr rfl fun f _ => ?_
  rw [shapeCast_1ab_ab_apply, truncf_apply, activate_apply, up_product_apply]
  refine congrArg (fun z => MlpSpec.gelu z * bt (ix3 0 f c)) (Finset.sum_congr rfl fun k _ => ?_)
  rw [truncf_apply, shapeCast_1ab_ab_apply, shapeCast_1ab_ab_apply]

end Cert.KernelIdeal.TileValue

end
-- ==== Proof.WindowBlocks.lean ====
/-
  The input windows' blocks as entries of the argument arrays.

  The grid has 8 × 16 points; point `t` works on expert `t / 16` and on rows `128 · (t % 16) …` of that expert's input.
  The input window (window 0) moves with both coordinates; the two weight windows (1 and 2) depend on the expert only and
  take that expert's whole matrix; the output window (3) moves as the input window does. The weight windows' arrays are
  written by the host before the launch as the two weights converted to bf16, which at the ideal instance is the identity:
  the launch finds the weights themselves there.
-/
import proofs.«153284_j45002667327743_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.WindowBlocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The four windows' block indices at every grid point, decided over the 128 points: the expert `t / 16` on the
    leading axis of all four; the row tile `t % 16` on the input's and the output's second axis; zero elsewhere. -/
theorem index_maps : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = t.val % 16 ∧ win0_3.index t (2 : Fin 3) = 0 :=
  (by decide +kernel : ∀ t : Fin grid0.N, _)

/-- A grid point's number is below 128. -/
theorem point_lt (t : Fin cfg0.N) : t.val < 128 := by
  have h : t.val < grid0.N := t.isLt
  rw [N_0] at h
  exact h

/-! ## The weight windows' arrays at the launch -/

/-- Window 1's array holds the first weight: the host's conversion to bf16 is the identity at the ideal instance. -/
theorem first_weight_at_launch (c : Dev nD) :
    (V m c main_call0_v0 : S8x1024x4096.Idx → EReal) = (m ((c : Thread nD τ).loc main_arg1) : S8x1024x4096.Idx → EReal) := by
  dsimp only [V, hostOps0]
  after_results
  rfl

/-- Window 2's array holds the second weight, likewise. -/
theorem second_weight_at_launch (c : Dev nD) :
    (V m c main_call0_v1 : S8x4096x1024.Idx → EReal) = (m ((c : Thread nD τ).loc main_arg2) : S8x4096x1024.Idx → EReal) := by
  dsimp only [V, hostOps0]
  after_results
  rfl

/-! ## The input blocks, entry by entry

A block's element sits at block index × block size + its coordinate inside the block, on every axis. -/

/-- The input tile at point `t`: row `r` of the tile is row `128 · (t % 16) + r` of expert `t / 16`'s input. -/
theorem input_block_apply (c : Dev nD) (t : Fin cfg0.N) (r : Fin 128) (k : Fin 1024) (e : Fin 8) (row : Fin 2048)
    (he : e.val = t.val / 16) (hrow : row.val = t.val % 16 * 128 + r.val) :
    (iblk m c 0 t : Vec Ideal S1x128x1024 .f32) (ix3 0 r k)
      = (m ((c : Thread nD τ).loc main_arg0) : S8x2048x1024.Idx → EReal) (ix3 e row k) := by
  obtain ⟨h0, h1, h2, -⟩ := index_maps t
  show V m c main_arg0 (((cfg0.win 0).blk t).view.emb (ix3 0 r k)) = _
  rw [V_main_arg0]
  refine congrArg _ (funext fun a => Fin.ext ?_)
  match a with
  | ⟨0, _⟩ => show win0_0.index t (0 : Fin 3) * 1 + 1 * 0 = e.val; omega
  | ⟨1, _⟩ => show win0_0.index t (1 : Fin 3) * 128 + 1 * r.val = row.val; omega
  | ⟨2, _⟩ => show win0_0.index t (2 : Fin 3) * 1024 + 1 * k.val = k.val; omega

/-- The first weight's block at point `t` is expert `t / 16`'s whole first weight. -/
theorem first_weight_block_apply (c : Dev nD) (t : Fin cfg0.N) (k : Fin 1024) (f : Fin 4096) (e : Fin 8)
    (he : e.val = t.val / 16) :
    (iblk m c 1 t : Vec Ideal S1x1024x4096 .bf16) (ix3 0 k f)
      = (m ((c : Thread nD τ).loc main_arg1) : S8x1024x4096.Idx → EReal) (ix3 e k f) := by
  obtain ⟨-, -, -, h0, h1, h2, -⟩ := index_maps t
  show (V m c main_call0_v0 : S8x1024x4096.Idx → EReal) (((cfg0.win 1).blk t).view.emb (ix3 0 k f)) = _
  rw [first_weight_at_launch]
  refine congrArg _ (funext fun a => Fin.ext ?_)
  match a with
  | ⟨0, _⟩ => show win0_1.index t (0 : Fin 3) * 1 + 1 * 0 = e.val; omega
  | ⟨1, _⟩ => show win0_1.index t (1 : Fin 3) * 1024 + 1 * k.val = k.val; omega
  | ⟨2, _⟩ => show win0_1.index t (2 : Fin 3) * 4096 + 1 * f.val = f.val; omega

/-- The second weight's block at point `t` is expert `t / 16`'s whole second weight. -/
theorem second_weight_block_apply (c : Dev nD) (t : Fin cfg0.N) (f : Fin 4096) (col : Fin 1024) (e : Fin 8)
    (he : e.val = t.val / 16) :
    (iblk m c 2 t : Vec Ideal S1x4096x1024 .bf16) (ix3 0 f col)
      = (m ((c : Thread nD τ).loc main_arg2) : S8x4096x1024.Idx → EReal) (ix3 e f col) := by
  obtain ⟨-, -, -, -, -, -, h0, h1, h2, -⟩ := index_maps t
  show (V m c main_call0_v1 : S8x4096x1024.Idx → EReal) (((cfg0.win 2).blk t).view.emb (ix3 0 f col)) = _
  rw [second_weight_at_launch]
  refine congrArg _ (funext fun a => Fin.ext ?_)
  match a with
  | ⟨0, _⟩ => show win0_2.index t (0 : Fin 3) * 1 + 1 * 0 = e.val; omega
  | ⟨1, _⟩ => show win0_2.index t (1 : Fin 3) * 4096 + 1 * f.val = f.val; omega
  | ⟨2, _⟩ => show win0_2.index t (2 : Fin 3) * 1024 + 1 * col.val = col.val; omega

end Cert.KernelIdeal.WindowBlocks

end
-- ==== Proof.ArrayValue.lean ====
/-
  From the tiles to the whole result array, and the kernel's run read as a value.

  Point `t` writes back, through the output window's block, the tile the body stored; by the tile's formula and the input
  blocks' entries that tile is block `t` of the specification `MlpSpec.mlp` of the three argument arrays: entry
  `(u, r, c)` of the block is entry `(t / 16, 128 · (t % 16) + r, c)` of the array. Every index `(e, row, c)` of the
  array lies in the block of point `16 · e + row / 128`, so the blocks cover the array and it ends holding `mlp`.
-/
import proofs.«153284_j45002667327743_2_alg».proof.Proof.Gen.KernelIdeal.Value
import proofs.«153284_j45002667327743_2_alg».proof.Proof.MlpSpec
import proofs.«153284_j45002667327743_2_alg».proof.Proof.TileValue
import proofs.«153284_j45002667327743_2_alg».proof.Proof.WindowBlocks
import Idealize.ShloMosaic.Lib.Pipeline.Value

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification at the three argument arrays as core `c` holds them at the launch. -/
abbrev result (c : Dev nD) : S8x2048x1024.Idx → EReal :=
  MlpSpec.mlp (m ((c : Thread nD τ).loc main_arg0)) (m ((c : Thread nD τ).loc main_arg1)) (m ((c : Thread nD τ).loc main_arg2))

theorem zero_offsets : (![0, 0, 0] : Fin 3 → Nat) = fun _ => 0 := funext fun a => by fin_cases a <;> rfl

/-- The tile stored at point `t`, entry `(u, r, col)`, is the specification at expert `t / 16`, row `128 · (t % 16) + r`. -/
theorem tile_eq (c : Dev nD) (t : Fin cfg0.N) (u : Fin 1) (r : Fin 128) (col : Fin 1024) (e : Fin 8) (row : Fin 2048)
    (he : e.val = t.val / 16) (hrow : row.val = t.val % 16 * 128 + r.val) :
    k0_pay1 (F := Ideal) (iblk m c 0 t) (iblk m c 1 t) (iblk m c 2 t) (ix3 u r col) = result m c (ix3 e row col) := by
  refine (TileValue.payload_apply (iblk m c 0 t) (iblk m c 1 t) (iblk m c 2 t) u r col).trans ?_
  unfold result MlpSpec.mlp MlpSpec.hidden
  refine Finset.sum_congr rfl fun f _ => ?_
  rw [WindowBlocks.second_weight_block_apply m c t f col e he]
  refine congrArg (fun z => MlpSpec.gelu z * _) (Finset.sum_congr rfl fun k _ => ?_)
  rw [WindowBlocks.input_block_apply m c t r k e row he hrow, WindowBlocks.first_weight_block_apply m c t k f e he]

/-- What point `t` writes back is block `t` of the specification. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zero_offsets]
  simp only [View.ld_unit_zero (S := S1x128x1024) zero_offsets, View.ld_unit_zero (S := S1x1024x4096) zero_offsets,
    View.ld_unit_zero (S := S1x4096x1024) zero_offsets]
  refine funext fun (y : S1x128x1024.Idx) => ?_
  obtain ⟨u, r, col, rfl⟩ : ∃ (u : Fin 1) (r : Fin 128) (col : Fin 1024), y = ix3 u r col := ⟨y 0, y 1, y 2, eq_ix3 y⟩
  have ht := WindowBlocks.point_lt t
  obtain ⟨-, -, -, -, -, -, -, -, -, h0, h1, h2⟩ := WindowBlocks.index_maps t
  have hemb : ((cfg0.win 3).blk t).view.emb (ix3 u r col)
      = ix3 (⟨t.val / 16, by omega⟩ : Fin 8) (⟨t.val % 16 * 128 + r.val, by omega⟩ : Fin 2048) col :=
    funext fun a => Fin.ext (by
      match a with
      | ⟨0, _⟩ => show win0_3.index t (0 : Fin 3) * 1 + 1 * u.val = t.val / 16; omega
      | ⟨1, _⟩ => show win0_3.index t (1 : Fin 3) * 128 + 1 * r.val = t.val % 16 * 128 + r.val; omega
      | ⟨2, _⟩ => show win0_3.index t (2 : Fin 3) * 1024 + 1 * col.val = col.val; omega)
  show k0_pay1 (F := Ideal) (iblk m c 0 t) (iblk m c 1 t) (iblk m c 2 t) (ix3 u r col)
    = result m c (((cfg0.win 3).blk t).view.emb (ix3 u r col))
  rw [hemb]
  exact tile_eq m c t u r col _ _ rfl rfl

/-- An index of the array is in point `t`'s block iff each coordinate is in the block's range on its axis. -/
theorem mem_block (t : Fin cfg0.N) (i : S8x2048x1024.Idx) :
    i ∈ ((cfg0.win 3).blk t).view.set ↔ ∀ a : Fin 3, win0_3.index t a * S1x128x1024.size a ≤ (i a).val
      ∧ (i a).val < win0_3.index t a * S1x128x1024.size a + S1x128x1024.size a := by
  show i ∈ ((View.whole main_v0).slice (win0_3.rect t)).set ↔ _
  rw [View.set_slice_whole, Rect.mem_set_unit]
  exact Iff.rfl

/-- Every index `(e, row, col)` of the array is in the block of point `16 · e + row / 128`, which writes back. -/
theorem covered (i : S8x2048x1024.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 1024 := (i 2).isLt
  have hN : (i 0).val * 16 + (i 1).val / 128 < cfg0.N := by
    show _ < grid0.N
    rw [N_0]
    omega
  refine ⟨⟨(i 0).val * 16 + (i 1).val / 128, hN⟩, flush0_3 _, ?_⟩
  rw [mem_block]
  obtain ⟨-, -, -, -, -, -, -, -, -, h0, h1, h2⟩ := WindowBlocks.index_maps ⟨(i 0).val * 16 + (i 1).val / 128, hN⟩
  have hv : (⟨(i 0).val * 16 + (i 1).val / 128, hN⟩ : Fin cfg0.N).val = (i 0).val * 16 + (i 1).val / 128 := rfl
  rw [hv] at h0 h1
  intro a
  match a with
  | ⟨0, _⟩ =>
    show win0_3.index _ (0 : Fin 3) * 1 ≤ (i 0).val ∧ (i 0).val < win0_3.index _ (0 : Fin 3) * 1 + 1
    omega
  | ⟨1, _⟩ =>
    show win0_3.index _ (1 : Fin 3) * 128 ≤ (i 1).val ∧ (i 1).val < win0_3.index _ (1 : Fin 3) * 128 + 128
    omega
  | ⟨2, _⟩ =>
    show win0_3.index _ (2 : Fin 3) * 1024 ≤ (i 2).val ∧ (i 2).val < win0_3.index _ (2 : Fin 3) * 1024 + 1024
    omega

/-- So the result array ends holding the specification. -/
theorem final (c : Dev nD) : (dats m 0 c).arrAt 3 cfg0.N = result m c :=
  (dats m 0 c).arrAt_eq_of_cover 3 (result m c) (fun t _ => flushed_eq m c t) covered

/-- The kernel's run, read: every weakly fair execution terminates with the result array at the specification of the
    argument arrays, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/-
  A batched two-layer perceptron with the tanh-approximated GELU, tiled over experts and row blocks, against its
  einsum reference: equal on the extended reals.

  For each of 8 experts the kernel takes 128 rows of the expert's input at a time, multiplies them by the expert's first
  weight, applies `gelu h = (½ · h) · (1 + tanh (c · (h + ((a · h) · h) · h)))` entry by entry and multiplies by the
  expert's second weight; the reference does the same with two batched products over the whole arrays. With a float an
  extended real, a change of float format the identity and a matrix product into a zero accumulator the plain sum over the
  contracted axis, both compute

      out[e, r, c] = ∑ f, gelu (∑ k, x[e, r, k] · w1[e, k, f]) · w2[e, f, c]      (`MlpSpec.mlp`)

  with the same four float literals grouped the same way: the two sides differ only in how the rows are tiled, and a row's
  result depends on that row alone. No law of the extended reals that needs finite operands is used, so the precondition
  is never opened.

  The modules: `MlpSpec` states the function; `RefIsMlp` reads the reference's run as it; `TileValue` reads what the
  kernel body stores at a point, entry by entry; `WindowBlocks` reads the input blocks as entries of the arguments;
  `ArrayValue` puts the tiles together into the whole array and states the kernel's run. The three frames are the
  generated ones (the reference's is its run with the value dropped), and the ideal pass rewrote nothing, so there is
  nothing to preserve.
-/
import proofs.«153284_j45002667327743_2_alg».proof.Defs
import proofs.«153284_j45002667327743_2_alg».proof.Proof.Gen.Kernel
import proofs.«153284_j45002667327743_2_alg».proof.Proof.Gen.Kernel.Frame
import proofs.«153284_j45002667327743_2_alg».proof.Proof.Gen.KernelIdeal
import proofs.«153284_j45002667327743_2_alg».proof.Proof.Gen.KernelIdeal.Frame
import proofs.«153284_j45002667327743_2_alg».proof.Proof.Gen.KernelIdeal.Value
import proofs.«153284_j45002667327743_2_alg».proof.Proof.Gen.ReferenceIdeal
import proofs.«153284_j45002667327743_2_alg».proof.Proof.Gen.ReferenceIdeal.Run
import proofs.«153284_j45002667327743_2_alg».proof.Proof.Gen.ReferenceIdeal.Read
import proofs.«153284_j45002667327743_2_alg».proof.Proof.Gen.Pre_finite_inputs
import proofs.«153284_j45002667327743_2_alg».proof.Proof.RefIsMlp
import proofs.«153284_j45002667327743_2_alg».proof.Proof.ArrayValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal instance: no rewrite to account for. -/
theorem preserves : Cert.preserves_Kernel_KernelIdeal := trivial

/-- From memories agreeing on the arguments both programs end with the result array at `MlpSpec.mlp` of the
    arguments: the kernel by its tiles, the reference by its two batched products. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
